-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x27278 : Shape := ⟨2, ![1024, 27278]⟩
abbrev S_ : Shape := ⟨0, ![]⟩

class Facts : Prop where
  bcast_S_S1024x27278 : S_.BroadcastsInDim S1024x27278 (![] : Fin 0 → Fin S1024x27278.rank)
  reducesTo_S1024x27278_S_d0_1 : S1024x27278.ReducesTo [0, 1] S_
  h_S_ : 0 < S_.numel

variable [Facts]

def fn {F : FTy → Type} [FloatOps F] (main_arg0 : FVec F S1024x27278 .f32) (main_arg1 : FVec F S1024x27278 .f32) : IVec S_ 1 :=
  let main_v0 : FVec F S1024x27278 .f32 := Host.absf main_arg0
  let main_cst : FVec F S_ .f32 := constant S_ .f32 0x7F800000#32
  let main_v1 : FVec F S1024x27278 .f32 := broadcastInDim S1024x27278 ![] bcast_S_S1024x27278 main_cst
  let main_v2 : IVec S1024x27278 1 := cmpf .olt main_v0 main_v1
  let main_c : IVec S_ 1 := constantI S_ 1 1#1
  let main_v3 : IVec S_ 1 := (fun x v => Host.reduce IntOp.andi x v reducesTo_S1024x27278_S_d0_1 h_S_) main_v2 main_c
  let main_v4 : FVec F S1024x27278 .f32 := Host.absf main_arg1
  let main_cst_0 : FVec F S_ .f32 := constant S_ .f32 0x7F800000#32
  let main_v5 : FVec F S1024x27278 .f32 := broadcastInDim S1024x27278 ![] bcast_S_S1024x27278 main_cst_0
  let main_v6 : IVec S1024x27278 1 := cmpf .olt main_v4 main_v5
  let main_c_1 : IVec S_ 1 := constantI S_ 1 1#1
  let main_v7 : IVec S_ 1 := (fun x v => Host.reduce IntOp.andi x v reducesTo_S1024x27278_S_d0_1 h_S_) main_v6 main_c_1
  let main_v8 : IVec S_ 1 := andi main_v3 main_v7
  main_v8
-- ==== Kernel.lean ====
abbrev S1024x27278 : Shape := ⟨2, ![1024, 27278]⟩
abbrev S16x1x1 : Shape := ⟨3, ![16, 1, 1]⟩
abbrev S64x27278 : Shape := ⟨2, ![64, 27278]⟩
abbrev S1x1x1 : Shape := ⟨3, ![1, 1, 1]⟩
abbrev S1x64x27278 : Shape := ⟨3, ![1, 64, 27278]⟩
abbrev S1 : Shape := ⟨1, ![1]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S1024x27278, .f32⟩
  | .hbm, ⟨1, _⟩ => ⟨S1024x27278, .f32⟩
  | .hbm, ⟨2, _⟩ => ⟨S16x1x1, .f32⟩
  | .hbm, ⟨3, _⟩ => ⟨S16x1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S64x27278, .f32⟩
  | .local _ .vmem, ⟨1, _⟩ => ⟨S64x27278, .f32⟩
  | .local _ .vmem, ⟨2, _⟩ => ⟨S64x27278, .f32⟩
  | .local _ .vmem, ⟨3, _⟩ => ⟨S64x27278, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | _, _ => ⟨S1024x27278, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x27278 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x27278 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S64x27278_S64x27278_0_0 : ∀ a, (![0, 0] : Fin 2 → Nat) a + S64x27278.size a ≤ S64x27278.size a
  h_S64x27278 : 0 < S64x27278.numel
  shapeCasts_S64x27278_S1x64x27278 : S64x27278.ShapeCasts S1x64x27278
  reduces_S1x64x27278_S1 : S1x64x27278.Reduces [1, 2] S1
  shapeCasts_S1_S1x1x1 : S1.ShapeCasts S1x1x1
  inpos_S1x1x1_p0_0_0 : ∀ a, (![0, 0, 0] : Fin 3 → Nat) a < S1x1x1.size a
  inb_S1x1x1_S1x1x1_0_0_0 : ∀ a, (![0, 0, 0] : Fin 3 → Nat) a + S1x1x1.size a ≤ S1x1x1.size a
  h_S1x1x1 : 0 < S1x1x1.numel
  natLt_1_32 : 1 < 32
  reducesTo_S16x1x1_S_d0_1_2 : S16x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x27278.size a ≤ S1024x27278.size a
  hwx0_0 : ∀ i : grid0.Coords, EltTy.bits .f32 = 32 ∨ (Rect.block (s := S1024x27278) S64x27278.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x27278.size a ≤ S1024x27278.size a
  hwx0_1 : ∀ i : grid0.Coords, EltTy.bits .f32 = 32 ∨ (Rect.block (s := S1024x27278) S64x27278.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S16x1x1.size a
  hwx0_2 : ∀ i : grid0.Coords, EltTy.bits .f32 = 32 ∨ (Rect.block (s := S16x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S16x1x1.size a
  hwx0_3 : ∀ i : grid0.Coords, EltTy.bits .f32 = 32 ∨ (Rect.block (s := S16x1x1) S1x1x1.size (cc0_transform_3 i) (hinb0_3 i)).WholeWords (EltTy.packing .f32)

variable [Facts₀]

abbrev win0_0 : Pipeline.Window sig grid0 :=
  Pipeline.Window.ofSpec (Memref.whole main_arg0) S64x27278.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x27278.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x27278 : Shape := ⟨2, ![1024, 27278]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S1024x27278, .f32⟩
  | .hbm, ⟨1, _⟩ => ⟨S1024x27278, .f32⟩
  | .hbm, ⟨2, _⟩ => ⟨S_, .f32⟩
  | .hbm, ⟨3, _⟩ => ⟨S1024x27278, .f32⟩
  | .hbm, ⟨4, _⟩ => ⟨S1024x27278, .i1⟩
  | .hbm, ⟨5, _⟩ => ⟨S1024x27278, .f32⟩
  | .hbm, ⟨6, _⟩ => ⟨S1024x27278, .f32⟩
  | .hbm, ⟨7, _⟩ => ⟨S_, .f32⟩
  | .hbm, ⟨8, _⟩ => ⟨S_, .f32⟩
  | .hbm, ⟨9, _⟩ => ⟨S1024x27278, .f32⟩
  | .hbm, ⟨10, _⟩ => ⟨S1024x27278, .f32⟩
  | .hbm, ⟨11, _⟩ => ⟨S_, .f32⟩
  | .hbm, ⟨12, _⟩ => ⟨S_, .f32⟩
  | .hbm, ⟨13, _⟩ => ⟨S1024x27278, .i32⟩
  | .hbm, ⟨14, _⟩ => ⟨S_, .i32⟩
  | .hbm, ⟨15, _⟩ => ⟨S_, .i32⟩
  | .hbm, ⟨16, _⟩ => ⟨S_, .f32⟩
  | .hbm, ⟨17, _⟩ => ⟨S_, .f32⟩
  | _, _ => ⟨S1024x27278, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]

class Facts₀ : Prop where
  bcast_S_S1024x27278 : S_.BroadcastsInDim S1024x27278 (![] : Fin 0 → Fin S1024x27278.rank)
  reducesTo_S1024x27278_S_d0_1 : S1024x27278.ReducesTo [0, 1] S_
  h_S_ : 0 < S_.numel
  natLt_1_32 : 1 < 32

variable [Facts₀]

class Facts : Prop extends Facts₀ where

variable [Facts]
-- ==== Proof.LibBlockSums.lean ====
/-
  Sums over the indices of an array cut into blocks of consecutive rows, and a count kept in 32-bit integers.

  * the embedding of the reals into the extended reals commutes with finite sums;
  * a sum over the indices of a shape [n, 1, 1] is the sum over its first coordinate;
  * a sum over the indices of a shape [nb * rb, C] is the sum, over the nb blocks of rb consecutive rows, of the
    sums over each block's own indices [rb, C]: row `rb * p + r` of the array is row `r` of block `p`
    (addition in a commutative monoid: nothing is asked of the summands);
  * the two's-complement sum of fewer than 2^31 words, each 0 or 1, read back as a signed integer, is the number of
    ones: the partial sums never reach 2^31, so the 32-bit addition never wraps.
-/
import Idealize.ShloMosaic.Lib.ValueIdx
import Idealize.ShloMosaic.PureOps.Reduce
import Idealize.ShloMosaic.PureOps.Ideal

namespace Cert.BlockSums

open Idealize.ShloMosaic Idealize.ShloMosaic.ValueIdx

/-- The embedding of the reals into the extended reals commutes with finite sums. -/
theorem coe_sum {ι : Type*} (s : Finset ι) (r : ι → ℝ) :
    ((∑ j ∈ s, r j : ℝ) : EReal) = ∑ j ∈ s, (r j : EReal) := by
  classical
  induction s using Finset.induction_on with
  | empty => simp
  | insert a s ha ih => rw [Finset.sum_insert ha, Finset.sum_insert ha, EReal.coe_add, ih]

/-- A sum over the indices of a shape [n, 1, 1] is the sum over its first coordinate. -/
theorem sum_idx_n11 {M : Type*} [AddCommMonoid M] {n : ℕ} (h : (⟨3, ![n, 1, 1]⟩ : Shape).Idx → M) :
    ∑ i, h i = ∑ p : Fin n, h (ix3 p 0 0) := by
  let e : Fin n ≃ (⟨3, ![n, 1, 1]⟩ : Shape).Idx :=
    { toFun := fun p => ix3 p 0 0
      invFun := fun i => i 0
      left_inv := fun p => rfl
      right_inv := fun i => by
        funext a
        match a with
        | ⟨0, _⟩ => rfl
        | ⟨1, _⟩ => exact Fin.ext (by have h1 : (i 1).val < 1 := (i 1).isLt; show 0 = (i 1).val; omega)
        | ⟨2, _⟩ => exact Fin.ext (by have h2 : (i 2).val < 1 := (i 2).isLt; show 0 = (i 2).val; omega) }
  exact (Fintype.sum_equiv e (fun p => h (ix3 p 0 0)) h (fun p => rfl)).symm

/-- Row `r` of block `p`, of `nb` blocks of `rb` rows, is a row of the array. -/
theorem blockRow_lt {nb rb p r : ℕ} (hp : p < nb) (hr : r < rb) : rb * p + r < nb * rb :=
  calc rb * p + r < rb * p + rb := by omega
    _ = rb * (p + 1) := by ring
    _ ≤ rb * nb := Nat.mul_le_mul_left _ hp
    _ = nb * rb := Nat.mul_comm _ _

/-- A sum over the rows of an array of `nb * rb` rows, block by block. -/
theorem sum_fin_blocks {M : Type*} [AddCommMonoid M] (nb rb : ℕ) (f : Fin (nb * rb) → M) :
    ∑ a, f a = ∑ p : Fin nb, ∑ r : Fin rb, f ⟨rb * p.val + r.val, blockRow_lt p.isLt r.isLt⟩ := by
  rw [← Equiv.sum_comp finProdFinEquiv f, Fintype.sum_prod_type]
  refine Finset.sum_congr rfl fun p _ => Finset.sum_congr rfl fun r _ => congrArg f (Fin.ext ?_)
  show r.val + rb * p.val = rb * p.val + r.val
  omega

/-- A sum over the indices of an array [N, C] of `N = nb * rb` rows is the sum over the blocks of `rb` consecutive
    rows of the sums over each block's indices. -/
theorem sum_rowBlocks {M : Type*} [AddCommMonoid M] {N nb rb C : ℕ} (hN : N = nb * rb)
    (g : (⟨2, ![N, C]⟩ : Shape).Idx → M) :
    ∑ j, g j = ∑ p : Fin nb, ∑ y : (⟨2, ![rb, C]⟩ : Shape).Idx,
      g (ix2 ⟨rb * p.val + (y 0).val, hN ▸ blockRow_lt p.isLt (y 0).isLt⟩ (y 1)) := by
  subst hN
  rw [sum_idx2 g, sum_fin_blocks nb rb]
  refine Finset.sum_congr rfl fun p _ => ?_
  rw [sum_idx2]
  rfl

/-- A one-bit word widened to 32 bits is 0 or 1. -/
theorem toNat_setWidth_bit_le (b : BitVec 1) : (b.setWidth 32).toNat ≤ 1 := by
  have := b.isLt
  rw [BitVec.toNat_setWidth]
  omega

/-- The 32-bit sum of a finite family of words, each 0 or 1, of fewer than 2^32 members, is their number of ones. -/
theorem toNat_fold_addi {ι : Type*} [DecidableEq ι] (x : ι → BitVec 32) (hx : ∀ j, (x j).toNat ≤ 1) (S : Finset ι) :
    S.card < 2 ^ 32 → (S.fold IntOp.addi 0#32 x).toNat = ∑ j ∈ S, (x j).toNat ∧ ∑ j ∈ S, (x j).toNat ≤ S.card := by
  induction S using Finset.induction_on with
  | empty => intro _; simp
  | insert a S ha ih =>
    intro hc
    rw [Finset.card_insert_of_notMem ha] at hc
    obtain ⟨e, hle⟩ := ih (by omega)
    rw [Finset.fold_insert ha, Finset.sum_insert ha, Finset.card_insert_of_notMem ha]
    have ha1 := hx a
    refine ⟨?_, by omega⟩
    show (x a + S.fold IntOp.addi 0#32 x).toNat = _
    rw [BitVec.toNat_add, e]
    exact Nat.mod_eq_of_lt (by omega)

/-- The two's-complement sum of fewer than 2^31 words, each 0 or 1, read as a signed integer and then as an extended
    real, is the sum of the words read so one by one: the count of the ones. -/
theorem toInt_fold_addi_eq_sum {ι : Type*} [Fintype ι] [DecidableEq ι] (x : ι → BitVec 32) (hx : ∀ j, (x j).toNat ≤ 1)
    (hc : Fintype.card ι < 2 ^ 31) :
    (((Finset.univ.fold IntOp.addi 0#32 x).toInt : ℝ) : EReal) = ∑ j, (((x j).toInt : ℝ) : EReal) := by
  obtain ⟨e, hle⟩ := toNat_fold_addi x hx Finset.univ (by rw [Finset.card_univ]; omega)
  rw [Finset.card_univ] at hle
  have hI : ∀ y : BitVec 32, y.toNat < 2 ^ 31 → y.toInt = (y.toNat : ℤ) := fun y hy =>
    BitVec.toInt_eq_toNat_of_lt (by omega)
  rw [hI _ (by omega), e, ← coe_sum]
  congr 1
  rw [Int.cast_natCast, Nat.cast_sum]
  refine Finset.sum_congr rfl fun j _ => ?_
  rw [hI _ (by have := hx j; omega), Int.cast_natCast]

end Cert.BlockSums
-- ==== Proof.Spec.lean ====
/-
  The masked mean squared error of two [1024, 27278] arrays, as one function of them on the extended reals.

  An entry is OBSERVED where the target differs from −1. The loss is the sum over the observed entries of
  (output − target)², divided by the number of observed entries. The count is kept the way both programs keep it: the
  observed bit of each entry, widened to a 32-bit word and read as a signed integer (0 or 1).

  The array is also read as 16 blocks of 64 consecutive rows: row `64 * p + r` of the array is row `r` of block `p`.
  A block's partial sum is the sum over its own 64 × 27278 entries, and the sum of the 16 partial sums is the sum over
  the whole array — by commutativity and associativity of addition alone, so nothing is asked of the summands
  (an infinite entry changes neither side's value differently).
-/
import proofs.«129270_g41051297415206_cont_8to1_b_1504_7_alg».proof.Proof.LibBlockSums

noncomputable section

namespace Cert.MaskedMse

open Idealize.ShloMosaic Idealize.ShloMosaic.ValueIdx

/-- The whole array's shape, a block's, and the shape of the 16 partial results. -/
abbrev Arr : Shape := ⟨2, ![1024, 27278]⟩
abbrev Blk : Shape := ⟨2, ![64, 27278]⟩
abbrev Parts : Shape := ⟨3, ![16, 1, 1]⟩

/-- The observed bit of an entry with target `t`: 1 where `t ≠ −1` (the literal is −1.0), else 0. -/
def observed (t : EReal) : BitVec 1 := Ideal.cmp .une t (Ideal.ofBits .f32 0xBF800000#32)

/-- An entry's term of the loss: the squared error where observed, the literal zero elsewhere. -/
def sqErr (o t : EReal) : EReal :=
  Scalar.select (observed t) ((o - t) * (o - t)) (Ideal.ofBits .f32 0x00000000#32)

/-- An entry's term of the count: its observed bit as a 32-bit word, read signed. -/
def obsCount (t : EReal) : EReal := ((((observed t).setWidth 32).toInt : ℝ) : EReal)

/-- The sum of the squared errors over the observed entries, and the number of observed entries. -/
def lossSum (o t : Arr.Idx → EReal) : EReal := ∑ j, sqErr (o j) (t j)
def obsSum (t : Arr.Idx → EReal) : EReal := ∑ j, obsCount (t j)

/-- THE RESULT: the masked mean squared error (a rank-0 array). -/
def loss (o t : Arr.Idx → EReal) : (⟨0, ![]⟩ : Shape).Idx → EReal := fun _ => Ideal.div (lossSum o t) (obsSum t)

/-- The result at its one index. -/
theorem loss_apply (o t : Arr.Idx → EReal) (i : (⟨0, ![]⟩ : Shape).Idx) :
    loss o t i = Ideal.div (lossSum o t) (obsSum t) := rfl

/-- Entry `y` of row block `p`, as an entry of the array. -/
def blockEntry (p : Fin 16) (y : Blk.Idx) : Arr.Idx :=
  ix2 ⟨64 * p.val + (y 0).val, by have := p.isLt; have h : (y 0).val < 64 := (y 0).isLt; omega⟩ (y 1)

/-- The 16 partial sums of squared errors and the 16 partial counts, one per row block. -/
def partLoss (o t : Arr.Idx → EReal) : Parts.Idx → EReal := fun i =>
  ∑ y : Blk.Idx, sqErr (o (blockEntry (i 0) y)) (t (blockEntry (i 0) y))
def partObs (t : Arr.Idx → EReal) : Parts.Idx → EReal := fun i =>
  ∑ y : Blk.Idx, obsCount (t (blockEntry (i 0) y))

/-- The partial sums add up to the whole sum. -/
theorem sum_partLoss (o t : Arr.Idx → EReal) : ∑ i, partLoss o t i = lossSum o t := by
  unfold lossSum
  rw [Cert.BlockSums.sum_idx_n11,
    Cert.BlockSums.sum_rowBlocks (N := 1024) (nb := 16) (rb := 64) (C := 27278) (by norm_num) (fun j => sqErr (o j) (t j))]
  rfl

/-- The partial counts add up to the whole count. -/
theorem sum_partObs (t : Arr.Idx → EReal) : ∑ i, partObs t i = obsSum t := by
  unfold obsSum
  rw [Cert.BlockSums.sum_idx_n11,
    Cert.BlockSums.sum_rowBlocks (N := 1024) (nb := 16) (rb := 64) (C := 27278) (by norm_num) (fun j => obsCount (t j))]
  rfl

/-- The array has fewer than 2^31 entries: a 32-bit count of them cannot wrap. -/
theorem card_lt : Fintype.card Arr.Idx < 2 ^ 31 := by
  rw [Shape.card_idx]
  decide

end Cert.MaskedMse

end
-- ==== Proof.RefValue.lean ====
/-
  The reference, read one operation at a time, is the masked mean squared error of its two arguments.

  Its numerator is the host's sum, from the literal zero, over every entry of the where-selected squared error; its
  denominator is the observed bits widened to 32-bit words, summed IN 32-BIT INTEGERS over every entry and only then
  read as a signed integer. The array has fewer than 2^31 entries and each word is 0 or 1, so that integer sum never
  wraps and is the count.
-/
import proofs.«129270_g41051297415206_cont_8to1_b_1504_7_alg».proof.Defs
import proofs.«129270_g41051297415206_cont_8to1_b_1504_7_alg».proof.Proof.Gen.ReferenceIdeal.Read
import proofs.«129270_g41051297415206_cont_8to1_b_1504_7_alg».proof.Proof.Spec
import Idealize.ShloMosaic.PureOps.Ideal.Laws

noncomputable section

namespace Cert.ReferenceIdeal.RefValue

open Cert.ReferenceIdeal Cert.ReferenceIdeal.Gen Cert.ReferenceIdeal.Read Idealize.ShloMosaic Cert.MaskedMse

/-- The comparison with the broadcast −1 is the observed bit. -/
theorem v1_apply (x1 : (⟨S1024x27278, .f32⟩ : BufTy).Contents (Elt Ideal)) (j : S1024x27278.Idx) :
    val_main_v1 (F := Ideal) x1 j = observed (x1 j) := by
  rw [val_main_v1_apply, val_main_v0_apply, val_main_cst_apply]
  rfl

/-- The where-selected product is the entry's term of the loss. -/
theorem v4_apply (x0 x1 : (⟨S1024x27278, .f32⟩ : BufTy).Contents (Elt Ideal)) (j : S1024x27278.Idx) :
    val_main_v4 (F := Ideal) x0 x1 j = sqErr (x0 j) (x1 j) := by
  rw [val_main_v4_apply, v1_apply, val_main_v3_apply, val_main_v2_apply, val_main_call0_v1_apply,
    val_main_call0_v0_apply, val_main_cst_0_apply]
  rfl

/-- The 32-bit integer sum of the widened observed bits, converted to a float, is the count. -/
theorem v8_apply (x1 : (⟨S1024x27278, .f32⟩ : BufTy).Contents (Elt Ideal)) (i : S_.Idx) :
    val_main_v8 (F := Ideal) x1 i = obsSum x1 := by
  rw [val_main_v8_apply]
  unfold val_main_v7
  rw [Host.reduce_eq_fold, Finset.filter_true_of_mem fun j _ => funext fun b => b.elim0]
  show (((Finset.univ.fold IntOp.addi 0#32 (val_main_v6 (F := Ideal) x1)).toInt : ℝ) : EReal) = _
  rw [Cert.BlockSums.toInt_fold_addi_eq_sum (val_main_v6 (F := Ideal) x1)
    (fun j => Cert.BlockSums.toNat_setWidth_bit_le (val_main_v1 (F := Ideal) x1 j)) card_lt]
  unfold obsSum
  refine Finset.sum_congr rfl fun j _ => ?_
  rw [val_main_v6_apply, v1_apply]
  rfl

/-- THE REFERENCE'S RESULT is the masked mean squared error of the arguments. -/
theorem result_eq (x0 x1 : (⟨S1024x27278, .f32⟩ : BufTy).Contents (Elt Ideal)) :
    val_main_v9 (F := Ideal) x0 x1 = loss x0 x1 := by
  funext i
  rw [val_main_v9_apply, val_main_v5_apply, v8_apply]
  simp only [v4_apply]
  show Ideal.div (Ideal.ofBits .f32 0x00000000#32 + lossSum x0 x1) (obsSum x1) = Ideal.div (lossSum x0 x1) (obsSum x1)
  rw [Ideal.ofBits_zero_f32, zero_add]

end Cert.ReferenceIdeal.RefValue

end
-- ==== Proof.BlockTotal.lean ====
/-
  The total of a [64, 27278] block of per-entry terms, computed the kernel's way.

  The vector is given a leading unit axis, summed over its two long axes into a single element, and that element is
  extracted and broadcast into the [1, 1, 1] result. Giving the vector another shape only renumbers its entries (one
  bijection between the two index sets), and a sum into a one-element result is the sum over every entry: the value
  stored is the sum over the block's entries.
-/
import proofs.«129270_g41051297415206_cont_8to1_b_1504_7_alg».proof.Proof.Gen.KernelIdeal
import Idealize.ShloMosaic.PureOps.Ideal.Laws
import Idealize.ShloMosaic.Lib.Pipeline.Value

noncomputable section

namespace Cert.KernelIdeal.Block

open Cert.KernelIdeal Cert.KernelIdeal.Gen Idealize.ShloMosaic

/-- Summing a vector seen under another shape is summing the vector. -/
theorem sum_shapeCast {s t : Shape} (v : s.Idx → EReal) (h : s.ShapeCasts t) :
    ∑ i : t.Idx, shapeCast t v h i = ∑ y : s.Idx, v y :=
  Equiv.sum_comp (Shape.reshapeEquiv h) v

/-- The [1, 64, 27278] → [1] sum, at its one element, is the sum over every entry. -/
theorem reduce_total (w : FVec Ideal S1x64x27278 .f32) (k : S1.Idx) :
    multiReduction .add [1, 2] S1 w 0x00000000#32 reduces_S1x64x27278_S1 (.inl rfl) rfl k = ∑ i : S1x64x27278.Idx, w i :=
  Ideal.multiReduction_add_total w 0x00000000#32 reduces_S1x64x27278_S1 (fun b => by fin_cases b; rfl) (.inl rfl) rfl k

/-- The one element of a [1] vector, seen as [1, 1, 1], extracted and broadcast back: at any index, that element. -/
theorem extract_bcast (R : FVec Ideal S1 .f32) (j : S1x1x1.Idx) :
    broadcast S1x1x1 (extractAt ![0, 0, 0] (shapeCast S1x1x1 R shapeCasts_S1_S1x1x1) inpos_S1x1x1_p0_0_0) j
      = R (Shape.reshapeEquiv shapeCasts_S1_S1x1x1 (fun a => ⟨(![0, 0, 0] : Fin 3 → Nat) a, inpos_S1x1x1_p0_0_0 a⟩)) := rfl

/-- The total of a block of per-entry terms, computed the kernel's way, is the sum over the block's entries. -/
theorem total_apply (v : FVec Ideal S64x27278 .f32) (j : S1x1x1.Idx) :
    broadcast S1x1x1 (extractAt ![0, 0, 0] (shapeCast S1x1x1 (multiReduction .add [1, 2] S1
      (shapeCast S1x64x27278 v shapeCasts_S64x27278_S1x64x27278) 0x00000000#32 reduces_S1x64x27278_S1 (.inl rfl) rfl)
      shapeCasts_S1_S1x1x1) inpos_S1x1x1_p0_0_0) j = ∑ y : S64x27278.Idx, v y :=
  (extract_bcast (multiReduction .add [1, 2] S1
      (shapeCast S1x64x27278 v shapeCasts_S64x27278_S1x64x27278) 0x00000000#32 reduces_S1x64x27278_S1 (.inl rfl) rfl) j).trans
    ((reduce_total (shapeCast S1x64x27278 v shapeCasts_S64x27278_S1x64x27278) _).trans
      (sum_shapeCast v shapeCasts_S64x27278_S1x64x27278))

end Cert.KernelIdeal.Block

end
-- ==== Proof.KernelBlock.lean ====
/-
  What the kernel body stores at one grid point, as a function of the two blocks it loads.

  From the loaded output block `x0` and target block `x1` the body forms two [64, 27278] vectors of per-entry terms —
  the squared error where the target is observed (zero elsewhere), and the observed bit converted to a float — and
  stores the total of each. A block's total is the sum over its entries, so the first store is the block's sum of
  squared errors over its observed entries and the second its number of observed entries.
-/
import proofs.«129270_g41051297415206_cont_8to1_b_1504_7_alg».proof.Proof.Gen.KernelIdeal.Skeleton
import proofs.«129270_g41051297415206_cont_8to1_b_1504_7_alg».proof.Proof.Spec
import proofs.«129270_g41051297415206_cont_8to1_b_1504_7_alg».proof.Proof.BlockTotal

noncomputable section

namespace Cert.KernelIdeal.Block

open Cert.KernelIdeal Cert.KernelIdeal.Gen Idealize.ShloMosaic Cert.MaskedMse

/-- The vector of per-entry squared errors the body forms from its two loaded blocks: the comparison of the target
    with −1 selects between the square of the difference and zero. -/
def sqVec (x0 x1 : Vec Ideal S64x27278 .f32) : FVec Ideal S64x27278 .f32 :=
  select (k0_pay1 (F := Ideal) x1) (mulf (F := Ideal) (subf (F := Ideal) x0 x1) (subf (F := Ideal) x0 x1))
    (broadcast S64x27278 (Scalar.ofBits (F := Ideal) .f32 0x00000000#32))

/-- The vector of per-entry observed bits, widened to 32-bit words and converted to floats. -/
def obsVec (x1 : Vec Ideal S64x27278 .f32) : FVec Ideal S64x27278 .f32 :=
  sitofp .f32 (extui 32 (k0_pay1 (F := Ideal) x1) natLt_1_32)

/-- Entry by entry they are the loss's and the count's terms (the ordered and the unordered "not equal" are one
    comparison on the extended reals, which have no NaN). -/
theorem entry_sq (x0 x1 : Vec Ideal S64x27278 .f32) (y : S64x27278.Idx) : sqVec x0 x1 y = sqErr (x0 y) (x1 y) := rfl
theorem entry_obs (x1 : Vec Ideal S64x27278 .f32) (y : S64x27278.Idx) : obsVec x1 y = obsCount (x1 y) := rfl

/-- The first store: the block's sum of squared errors over its observed entries. -/
theorem pay2_apply (x0 x1 : Vec Ideal S64x27278 .f32) (j : S1x1x1.Idx) :
    k0_pay2 (F := Ideal) x0 x1 j = ∑ y : S64x27278.Idx, sqErr (x0 y) (x1 y) := by
  unfold k0_pay2
  exact (total_apply (sqVec x0 x1) j).trans (Finset.sum_congr rfl fun y _ => entry_sq x0 x1 y)

/-- The second store: the block's number of observed entries. -/
theorem pay3_apply (x1 : Vec Ideal S64x27278 .f32) (j : S1x1x1.Idx) :
    k0_pay3 (F := Ideal) x1 j = ∑ y : S64x27278.Idx, obsCount (x1 y) := by
  unfold k0_pay3
  exact (total_apply (obsVec x1) j).trans (Finset.sum_congr rfl fun y _ => entry_obs x1 y)

end Cert.KernelIdeal.Block

end
-- ==== Proof.KernelValue.lean ====
/-
  The kernel's run, read: its result is the masked mean squared error of its two arguments.

  Grid point `t` loads rows 64·t … 64·t + 63 of both arguments and writes back two single numbers, into entry
  (t, 0, 0) of two [16, 1, 1] arrays: the block's sum of squared errors over its observed entries, and its number of
  observed entries. The 16 points' blocks are the 16 entries of each array, so after the region the two arrays hold
  the 16 partial sums and the 16 partial counts. The host lines after the region add each array up from the literal
  zero and divide; the partial sums add up to the whole sums, so the quotient is the loss.
-/
import proofs.«129270_g41051297415206_cont_8to1_b_1504_7_alg».proof.Defs
import proofs.«129270_g41051297415206_cont_8to1_b_1504_7_alg».proof.Proof.Gen.KernelIdeal.Frame
import proofs.«129270_g41051297415206_cont_8to1_b_1504_7_alg».proof.Proof.KernelBlock
import Idealize.ShloMosaic.Lib.Pipeline.Value
import Idealize.ShloMosaic.Lib.StableHlo.Run
import Idealize.ShloMosaic.PureOps.Ideal.Laws

set_option maxRecDepth 16384

noncomputable section

namespace Cert.KernelIdeal.KValue

open Cert.KernelIdeal Cert.KernelIdeal.Gen Idealize.ShloMosaic Idealize.ShloMosaic.TcCoe Idealize.SL.Sem Cert.MaskedMse
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 16 grid points: point `t` takes row block `t` of each argument (all
    columns) and entry (t, 0, 0) of each result. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ t.val < 16 :=
  (by decide +kernel : ∀ t : Fin grid0.N, _)

/-! ## The partial sums of squared errors (output window 2) -/

/-- WHAT POINT `t` WRITES BACK into the first result is block `t` of the 16 partial sums of the argument arrays. -/
theorem flushed2_eq (c : Dev nD) (t : Fin cfg0.N) :
    (dats m 0 c).flushed 2 t
      = ((cfg0.win 2).blk t).view.read (Elt Ideal) (partLoss (V m c main_arg0) (V m c main_arg1)) := by
  show (cfg0.win 2).cut (grid0.coords t) ((dats m 0 c).after 2 t) = _
  rw [after0_2]
  unfold out0_2
  rw [View.canon_unit_zero hz3]
  simp only [View.ld_unit_zero (S := S64x27278) hz2]
  obtain ⟨e00, e01, e10, e11, e20, e21, e22, -, -, -, ht⟩ := idx_facts t
  funext j
  rw [View.read_apply, cast_eq]
  refine Eq.trans (Block.pay2_apply (iblk m c 0 t) (iblk m c 1 t) ((win0 2).xinj (grid0.coords t) j)) ?_
  unfold partLoss
  show (_ : EReal) = _
  refine Finset.sum_congr rfl fun y _ => ?_
  have hj : (j 0).val < 1 := (j 0).isLt
  have h0 : ((cfg0.win 0).blk t).view.emb y = blockEntry ((((cfg0.win 2).blk t).view.emb j) 0) y := by
    funext a; apply Fin.ext
    match a with
    | ⟨0, _⟩ =>
      show win0_0.index t (0 : Fin 2) * 64 + 1 * (y 0).val
        = 64 * (win0_2.index t (0 : Fin 3) * 1 + 1 * (j 0).val) + (y 0).val
      omega
    | ⟨1, _⟩ =>
      show win0_0.index t (1 : Fin 2) * 27278 + 1 * (y 1).val = (y 1).val
      omega
  have h1 : ((cfg0.win 1).blk t).view.emb y = blockEntry ((((cfg0.win 2).blk t).view.emb j) 0) y := by
    funext a; apply Fin.ext
    match a with
    | ⟨0, _⟩ =>
      show win0_1.index t (0 : Fin 2) * 64 + 1 * (y 0).val
        = 64 * (win0_2.index t (0 : Fin 3) * 1 + 1 * (j 0).val) + (y 0).val
      omega
    | ⟨1, _⟩ =>
      show win0_1.index t (1 : Fin 2) * 27278 + 1 * (y 1).val = (y 1).val
      omega
  unfold iblk
  rw [View.read_apply, View.read_apply, cast_eq, cast_eq, h0, h1]

/-- An entry of the first result is in point `t`'s block iff each coordinate is in the block's range. -/
theorem mem_blk2 (t : Fin cfg0.N) (i : S16x1x1.Idx) :
    i ∈ ((cfg0.win 2).blk t).view.set ↔ ∀ a : Fin 3, win0_2.index t a * S1x1x1.size a ≤ (i a).val
      ∧ (i a).val < win0_2.index t a * S1x1x1.size a + S1x1x1.size a := by
  show i ∈ ((View.whole main_v0_0).slice (win0_2.rect t)).set ↔ _
  rw [View.set_slice_whole, Rect.mem_set_unit]
  exact Iff.rfl

/-- Entry (p, 0, 0) is point `p`'s block: the 16 blocks are the whole array. -/
theorem cover2 (i : S16x1x1.Idx) :
    ∃ t : Fin cfg0.N, (cfg0.win 2).flush t = true ∧ i ∈ ((cfg0.win 2).blk t).view.set := by
  have hi0 : (i 0).val < 16 := (i 0).isLt
  have hi1 : (i 1).val < 1 := (i 1).isLt
  have hi2 : (i 2).val < 1 := (i 2).isLt
  obtain ⟨t, htv⟩ : ∃ t : Fin cfg0.N, t.val = (i 0).val :=
    ⟨⟨(i 0).val, by rw [show cfg0.N = 16 from N_0]; exact hi0⟩, rfl⟩
  obtain ⟨-, -, -, -, e20, e21, e22, -, -, -, -⟩ := idx_facts t
  refine ⟨t, flush0_2 t, ?_⟩
  rw [mem_blk2]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1 ≤ (i 1).val ∧ (i 1).val < win0_2.index t (1 : Fin 3) * 1 + 1
    omega
  | ⟨2, _⟩ =>
    show win0_2.index t (2 : Fin 3) * 1 ≤ (i 2).val ∧ (i 2).val < win0_2.index t (2 : Fin 3) * 1 + 1
    omega

/-- THE FIRST RESULT ARRAY after the region: the 16 partial sums of squared errors. -/
theorem final2 (c : Dev nD) :
    (dats m 0 c).arrAt 2 cfg0.N = partLoss (V m c main_arg0) (V m c main_arg1) :=
  (dats m 0 c).arrAt_eq_of_cover 2 _ (fun t _ => flushed2_eq m c t) cover2

/-! ## The partial counts (output window 3) -/

/-- WHAT POINT `t` WRITES BACK into the second result is block `t` of the 16 partial counts of the target array. -/
theorem flushed3_eq (c : Dev nD) (t : Fin cfg0.N) :
    (dats m 0 c).flushed 3 t = ((cfg0.win 3).blk t).view.read (Elt Ideal) (partObs (V m c main_arg1)) := by
  show (cfg0.win 3).cut (grid0.coords t) ((dats m 0 c).after 3 t) = _
  rw [after0_3]
  unfold out0_3
  rw [View.canon_unit_zero hz3]
  simp only [View.ld_unit_zero (S := S64x27278) hz2]
  obtain ⟨-, -, e10, e11, -, -, -, e30, e31, e32, ht⟩ := idx_facts t
  funext j
  rw [View.read_apply, cast_eq]
  refine Eq.trans (Block.pay3_apply (iblk m c 1 t) ((win0 3).xinj (grid0.coords t) j)) ?_
  unfold partObs
  show (_ : EReal) = _
  refine Finset.sum_congr rfl fun y _ => ?_
  have hj : (j 0).val < 1 := (j 0).isLt
  have h1 : ((cfg0.win 1).blk t).view.emb y = blockEntry ((((cfg0.win 3).blk t).view.emb j) 0) y := by
    funext a; apply Fin.ext
    match a with
    | ⟨0, _⟩ =>
      show win0_1.index t (0 : Fin 2) * 64 + 1 * (y 0).val
        = 64 * (win0_3.index t (0 : Fin 3) * 1 + 1 * (j 0).val) + (y 0).val
      omega
    | ⟨1, _⟩ =>
      show win0_1.index t (1 : Fin 2) * 27278 + 1 * (y 1).val = (y 1).val
      omega
  unfold iblk
  rw [View.read_apply, cast_eq, h1]

theorem mem_blk3 (t : Fin cfg0.N) (i : S16x1x1.Idx) :
    i ∈ ((cfg0.win 3).blk t).view.set ↔ ∀ a : Fin 3, win0_3.index t a * S1x1x1.size a ≤ (i a).val
      ∧ (i a).val < win0_3.index t a * S1x1x1.size a + S1x1x1.size a := by
  show i ∈ ((View.whole main_v0_1).slice (win0_3.rect t)).set ↔ _
  rw [View.set_slice_whole, Rect.mem_set_unit]
  exact Iff.rfl

theorem cover3 (i : S16x1x1.Idx) :
    ∃ t : Fin cfg0.N, (cfg0.win 3).flush t = true ∧ i ∈ ((cfg0.win 3).blk t).view.set := by
  have hi0 : (i 0).val < 16 := (i 0).isLt
  have hi1 : (i 1).val < 1 := (i 1).isLt
  have hi2 : (i 2).val < 1 := (i 2).isLt
  obtain ⟨t, htv⟩ : ∃ t : Fin cfg0.N, t.val = (i 0).val :=
    ⟨⟨(i 0).val, by rw [show cfg0.N = 16 from N_0]; exact hi0⟩, rfl⟩
  obtain ⟨-, -, -, -, -, -, -, e30, e31, e32, -⟩ := idx_facts t
  refine ⟨t, flush0_3 t, ?_⟩
  rw [mem_blk3]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 1 ≤ (i 1).val ∧ (i 1).val < win0_3.index t (1 : Fin 3) * 1 + 1
    omega
  | ⟨2, _⟩ =>
    show win0_3.index t (2 : Fin 3) * 1 ≤ (i 2).val ∧ (i 2).val < win0_3.index t (2 : Fin 3) * 1 + 1
    omega

/-- THE SECOND RESULT ARRAY after the region: the 16 partial counts. -/
theorem final3 (c : Dev nD) : (dats m 0 c).arrAt 3 cfg0.N = partObs (V m c main_arg1) :=
  (dats m 0 c).arrAt_eq_of_cover 3 _ (fun t _ => flushed3_eq m c t) cover3

/-! ## The host lines after the region -/

/-- The host's sum of the 16 partial results from the literal zero is their sum. -/
theorem reduce_parts (x : S16x1x1.Idx → EReal) (i : S_.Idx) :
    Host.reduceAdd (F := Ideal) x (constant S_ .f32 0x00000000#32) reducesTo_S16x1x1_S_d0_1_2 h_S_ i = ∑ k, x k := by
  simp only [Host.reduceAdd, Ideal.hostReduceAdd_def]
  refine (Ideal.hostReduceAdd_total reducesTo_S16x1x1_S_d0_1_2 (fun b => b.elim0) x _ i).trans ?_
  show Ideal.ofBits .f32 0x00000000#32 + _ = _
  rw [Ideal.ofBits_zero_f32, zero_add]

/-- The host's division of two rank-0 arrays, at their one index. -/
theorem hostDivf_apply (a b : FVec Ideal S_ .f32) (i : S_.Idx) : Host.divf a b i = Ideal.div (a i) (b i) := rfl

/-- THE RESULT the lines after the region leave: the loss of the argument arrays (as the region found them). -/
theorem tail_eq (c : Dev nD) :
    Pipeline.afterTail₀ cfgs (dats m) 0 (V0 m) [hostOps1] c main_v3
      = loss (V m c main_arg0) (V m c main_arg1) := by
  unfold Pipeline.afterTail₀
  show StableHlo.after hostOps1 _ (Proc.devRef .tc main_v3) = _
  after_results
  have a2 : Pipeline.withArrays (cfgs 0).spec c (V0 m c) (fun w => (dats m 0 c).arrAt w (cfgs 0).N)
      (Proc.devRef .tc main_v0_0) = partLoss (V m c main_arg0) (V m c main_arg1) :=
    (Pipeline.withArrays_arr spec0 launch0.win.arr_inj c _ _ 2).trans (final2 m c)
  have a3 : Pipeline.withArrays (cfgs 0).spec c (V0 m c) (fun w => (dats m 0 c).arrAt w (cfgs 0).N)
      (Proc.devRef .tc main_v0_1) = partObs (V m c main_arg1) :=
    (Pipeline.withArrays_arr spec0 launch0.win.arr_inj c _ _ 3).trans (final3 m c)
  rw [a2, a3]
  funext i
  rw [hostDivf_apply, reduce_parts, reduce_parts, sum_partLoss, sum_partObs, loss_apply]

/-! ## The run -/

/-- The result buffer is unscoped and is no window's array: the frame run states it as the host tail leaves it. -/
theorem v3_rest : main_v3 ∈ Pipeline.restRefs sig (cfgs 0).spec :=
  Pipeline.mem_restRefs_of main_v3 rfl (by decide)

/-- THE KERNEL'S RUN: every weakly fair execution terminates with the result at the masked mean squared error of the
    argument arrays, and the arguments unchanged. -/
theorem run : θ_run defs (onTc (τ := τ) (main (F := Ideal))) ⟨m, fun _ => 0, ρ⟩ fun r => ∀ c : Dev nD,
      r.2.mem ((c.tc : Thread nD τ).loc main_v3)
        = loss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v3 v3_rest).trans
        ((tail_eq m c).trans (by rw [V_main_arg0, V_main_arg1])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.lean ====
/-
  A masked mean squared error over two f32[1024, 27278] arrays, `output` and `target`: the sum of (output − target)²
  over the entries whose target is not −1, divided by the number of those entries.

  The kernel walks 16 blocks of 64 rows. At each it writes two numbers, the block's sum of squared errors over its
  observed entries and the block's count of observed entries (each bit converted to a float and summed as floats);
  after the region the host adds the 16 partial sums, adds the 16 partial counts, and divides. The reference forms the
  where-selected squared error over the whole array and sums it once; it counts the observed bits as 32-bit integers,
  converts the total to a float, and divides.

  On the extended reals the two are one function:
  * the ordered and the unordered "not equal" are the same comparison (there is no NaN), so both programs observe the
    same entries;
  * a sum of 16 block sums is the sum over the whole array, by commutativity and associativity of addition alone — true
    of any summands, so the precondition (finite inputs) is never opened;
  * the array has 27,932,672 < 2^31 entries and each counted word is 0 or 1, so the reference's 32-bit count never
    wraps and, read as a signed integer, is the same number as the kernel's float sum of zeros and ones;
  * both end in the same division of the same two numbers (whatever it gives when nothing is observed).

  The frames of the two kernel programs are the generated ones; the reference's frame is its generated run with the
  result dropped. The ideal pass rewrote nothing, so there is nothing to preserve.
-/
import proofs.«129270_g41051297415206_cont_8to1_b_1504_7_alg».proof.Defs
import proofs.«129270_g41051297415206_cont_8to1_b_1504_7_alg».proof.Proof.Gen.Kernel
import proofs.«129270_g41051297415206_cont_8to1_b_1504_7_alg».proof.Proof.Gen.Kernel.Frame
import proofs.«129270_g41051297415206_cont_8to1_b_1504_7_alg».proof.Proof.Gen.KernelIdeal
import proofs.«129270_g41051297415206_cont_8to1_b_1504_7_alg».proof.Proof.Gen.KernelIdeal.Frame
import proofs.«129270_g41051297415206_cont_8to1_b_1504_7_alg».proof.Proof.Gen.ReferenceIdeal
import proofs.«129270_g41051297415206_cont_8to1_b_1504_7_alg».proof.Proof.Gen.ReferenceIdeal.Run
import proofs.«129270_g41051297415206_cont_8to1_b_1504_7_alg».proof.Proof.Gen.Pre_finite_inputs
import proofs.«129270_g41051297415206_cont_8to1_b_1504_7_alg».proof.Proof.RefValue
import proofs.«129270_g41051297415206_cont_8to1_b_1504_7_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text: no rewrite to account for. -/
theorem preserves : Cert.preserves_Kernel_KernelIdeal := trivial

/-- Both programs end at the masked mean squared error of the (agreeing) arguments: the kernel by its run read through
    the 16 partial sums and counts, the reference by its run read one operation at a time. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
